-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x256 : Shape := ⟨2, ![256, 256]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x256 .f32) (main_arg5 : FVec F S1024 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S256x256 .f32) (main_arg2 : FVec F S256x256 .f32) (main_arg3 : FVec F S256x256 .f32) (main_arg4 : FVec F S256x256 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S8x4096x1024 : Shape := ⟨3, ![8, 4096, 1024]⟩
abbrev S256x256 : Shape := ⟨2, ![256, 256]⟩
abbrev S1024 : Shape := ⟨1, ![1024]⟩
abbrev S4x4 : Shape := ⟨2, ![4, 4]⟩
abbrev S4x4x1x1 : Shape := ⟨4, ![4, 4, 1, 1]⟩
abbrev S1x1x256x256 : Shape := ⟨4, ![1, 1, 256, 256]⟩
abbrev S4x4x256x256 : Shape := ⟨4, ![4, 4, 256, 256]⟩
abbrev S4x256x4x256 : Shape := ⟨4, ![4, 256, 4, 256]⟩
abbrev S1024x1024 : Shape := ⟨2, ![1024, 1024]⟩
abbrev S32768x1024 : Shape := ⟨2, ![32768, 1024]⟩
abbrev S1x1024 : Shape := ⟨2, ![1, 1024]⟩

abbrev nBuf : Space → Nat
  | .hbm => 41
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1024, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4x1x1, .f32⟩
  | .hbm, ⟨11, _⟩ => ⟨S1x1x256x256, .f32⟩
  | .hbm, ⟨12, _⟩ => ⟨S4x4x256x256, .f32⟩
  | .hbm, ⟨13, _⟩ => ⟨S4x4x256x256, .f32⟩
  | .hbm, ⟨14, _⟩ => ⟨S4x4x256x256, .f32⟩
  | .hbm, ⟨15, _⟩ => ⟨S4x4x1x1, .f32⟩
  | .hbm, ⟨16, _⟩ => ⟨S1x1x256x256, .f32⟩
  | .hbm, ⟨17, _⟩ => ⟨S4x4x256x256, .f32⟩
  | .hbm, ⟨18, _⟩ => ⟨S4x4x256x256, .f32⟩
  | .hbm, ⟨19, _⟩ => ⟨S4x4x256x256, .f32⟩
  | .hbm, ⟨20, _⟩ => ⟨S4x4x256x256, .f32⟩
  | .hbm, ⟨21, _⟩ => ⟨S4x4x1x1, .f32⟩
  | .hbm, ⟨22, _⟩ => ⟨S1x1x256x256, .f32⟩
  | .hbm, ⟨23, _⟩ => ⟨S4x4x256x256, .f32⟩
  | .hbm, ⟨24, _⟩ => ⟨S4x4x256x256, .f32⟩
  | .hbm, ⟨25, _⟩ => ⟨S4x4x256x256, .f32⟩
  | .hbm, ⟨26, _⟩ => ⟨S4x4x256x256, .f32⟩
  | .hbm, ⟨27, _⟩ => ⟨S4x4x1x1, .f32⟩
  | .hbm, ⟨28, _⟩ => ⟨S1x1x256x256, .f32⟩
  | .hbm, ⟨29, _⟩ => ⟨S4x4x256x256, .f32⟩
  | .hbm, ⟨30, _⟩ => ⟨S4x4x256x256, .f32⟩
  | .hbm, ⟨31, _⟩ => ⟨S4x4x256x256, .f32⟩
  | .hbm, ⟨32, _⟩ => ⟨S4x4x256x256, .f32⟩
  | .hbm, ⟨33, _⟩ => ⟨S4x256x4x256, .f32⟩
  | .hbm, ⟨34, _⟩ => ⟨S1024x1024, .f32⟩
  | .hbm, ⟨35, _⟩ => ⟨S1024x1024, .f32⟩
  | .hbm, ⟨36, _⟩ => ⟨S1024x1024, .bf16⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4x4_S4x4x1x1_0_1 : S4x4.BroadcastsInDim S4x4x1x1 (![0, 1] : Fin 2 → Fin S4x4x1x1.rank)
  bcast_S256x256_S1x1x256x256_2_3 : S256x256.BroadcastsInDim S1x1x256x256 (![2, 3] : Fin 2 → Fin S1x1x256x256.rank)
  bcast_S4x4x1x1_S4x4x256x256_0_1_2_3 : S4x4x1x1.BroadcastsInDim S4x4x256x256 (![0, 1, 2, 3] : Fin 4 → Fin S4x4x256x256.rank)
  bcast_S1x1x256x256_S4x4x256x256_0_1_2_3 : S1x1x256x256.BroadcastsInDim S4x4x256x256 (![0, 1, 2, 3] : Fin 4 → Fin S4x4x256x256.rank)
  transposes_S4x4x256x256_S4x256x4x256_0_2_1_3 : S4x4x256x256.Transposes [0, 2, 1, 3] S4x256x4x256
  shapeCasts_S4x256x4x256_S1024x1024 : S4x256x4x256.ShapeCasts S1024x1024
  transposes_S1024x1024_S1024x1024_1_0 : S1024x1024.Transposes [1, 0] S1024x1024
  bitsLt_bf16_f32 : FTy.bits .bf16 < FTy.bits .f32
  shapeCasts_S8x4096x1024_S32768x1024 : S8x4096x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S256x256 : Shape := ⟨2, ![256, 256]⟩
abbrev S1024 : Shape := ⟨1, ![1024]⟩
abbrev S4x4 : Shape := ⟨2, ![4, 4]⟩
abbrev S4x4x1x1 : Shape := ⟨4, ![4, 4, 1, 1]⟩
abbrev S1x1x256x256 : Shape := ⟨4, ![1, 1, 256, 256]⟩
abbrev S4x4x256x256 : Shape := ⟨4, ![4, 4, 256, 256]⟩
abbrev S4x256x4x256 : Shape := ⟨4, ![4, 256, 4, 256]⟩
abbrev S1024x1024 : Shape := ⟨2, ![1024, 1024]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1024, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4x1x1, .f32⟩
  | .hbm, ⟨11, _⟩ => ⟨S1x1x256x256, .f32⟩
  | .hbm, ⟨12, _⟩ => ⟨S4x4x256x256, .f32⟩
  | .hbm, ⟨13, _⟩ => ⟨S4x4x256x256, .f32⟩
  | .hbm, ⟨14, _⟩ => ⟨S4x4x256x256, .f32⟩
  | .hbm, ⟨15, _⟩ => ⟨S4x4x1x1, .f32⟩
  | .hbm, ⟨16, _⟩ => ⟨S1x1x256x256, .f32⟩
  | .hbm, ⟨17, _⟩ => ⟨S4x4x256x256, .f32⟩
  | .hbm, ⟨18, _⟩ => ⟨S4x4x256x256, .f32⟩
  | .hbm, ⟨19, _⟩ => ⟨S4x4x256x256, .f32⟩
  | .hbm, ⟨20, _⟩ => ⟨S4x4x256x256, .f32⟩
  | .hbm, ⟨21, _⟩ => ⟨S4x4x1x1, .f32⟩
  | .hbm, ⟨22, _⟩ => ⟨S1x1x256x256, .f32⟩
  | .hbm, ⟨23, _⟩ => ⟨S4x4x256x256, .f32⟩
  | .hbm, ⟨24, _⟩ => ⟨S4x4x256x256, .f32⟩
  | .hbm, ⟨25, _⟩ => ⟨S4x4x256x256, .f32⟩
  | .hbm, ⟨26, _⟩ => ⟨S4x4x256x256, .f32⟩
  | .hbm, ⟨27, _⟩ => ⟨S4x4x1x1, .f32⟩
  | .hbm, ⟨28, _⟩ => ⟨S1x1x256x256, .f32⟩
  | .hbm, ⟨29, _⟩ => ⟨S4x4x256x256, .f32⟩
  | .hbm, ⟨30, _⟩ => ⟨S4x4x256x256, .f32⟩
  | .hbm, ⟨31, _⟩ => ⟨S4x4x256x256, .f32⟩
  | .hbm, ⟨32, _⟩ => ⟨S4x4x256x256, .f32⟩
  | .hbm, ⟨33, _⟩ => ⟨S4x256x4x256, .f32⟩
  | .hbm, ⟨34, _⟩ => ⟨S1024x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S4x4_S4x4x1x1_0_1 : S4x4.BroadcastsInDim S4x4x1x1 (![0, 1] : Fin 2 → Fin S4x4x1x1.rank)
  bcast_S256x256_S1x1x256x256_2_3 : S256x256.BroadcastsInDim S1x1x256x256 (![2, 3] : Fin 2 → Fin S1x1x256x256.rank)
  bcast_S4x4x1x1_S4x4x256x256_0_1_2_3 : S4x4x1x1.BroadcastsInDim S4x4x256x256 (![0, 1, 2, 3] : Fin 4 → Fin S4x4x256x256.rank)
  bcast_S1x1x256x256_S4x4x256x256_0_1_2_3 : S1x1x256x256.BroadcastsInDim S4x4x256x256 (![0, 1, 2, 3] : Fin 4 → Fin S4x4x256x256.rank)
  transposes_S4x4x256x256_S4x256x4x256_0_2_1_3 : S4x4x256x256.Transposes [0, 2, 1, 3] S4x256x4x256
  shapeCasts_S4x256x4x256_S1024x1024 : S4x256x4x256.ShapeCasts S1024x1024
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.QuatLinear.lean ====
/-
  The quaternion linear layer as ONE function of its arguments, on the extended reals.

  The weight is the 1024 × 1024 matrix W = A₁ ⊗ R + A_I ⊗ I + A_J ⊗ J + A_K ⊗ K: four 4 × 4 sign matrices (the left
  multiplication tables of the quaternion units 1, i, j, k), each Kronecker-multiplied with one 256 × 256 component. It
  is written here exactly as both programs compute it — each sign matrix and each component broadcast to
  [4, 4, 256, 256], the four products added, the block axes interleaved ([a, b, r, c] ↦ [a, r, b, c]) and flattened —
  and is never opened: the layer only reads W at an index.

  The layer is y[p, q, o] = Σ_k x[p, q, k] · W[o, k] + bias[o] (`layerAt`): a sum over the 1024 input features, in
  the commutative monoid of the extended reals, so no order or grouping of the sum is part of it.
-/
import Idealize.ShloMosaic.PureOps.Ideal
import Idealize.ShloMosaic.Lib.ValueIdx

noncomputable section

open scoped BigOperators

namespace Cert.QuatLinear

open Idealize.ShloMosaic Idealize.ShloMosaic.ValueIdx

abbrev S8x4096x1024 : Shape := ⟨3, ![8, 4096, 1024]⟩
abbrev S256x256 : Shape := ⟨2, ![256, 256]⟩
abbrev S1024 : Shape := ⟨1, ![1024]⟩
abbrev S4x4 : Shape := ⟨2, ![4, 4]⟩
abbrev S4x4x1x1 : Shape := ⟨4, ![4, 4, 1, 1]⟩
abbrev S1x1x256x256 : Shape := ⟨4, ![1, 1, 256, 256]⟩
abbrev S4x4x256x256 : Shape := ⟨4, ![4, 4, 256, 256]⟩
abbrev S4x256x4x256 : Shape := ⟨4, ![4, 256, 4, 256]⟩
abbrev S1024x1024 : Shape := ⟨2, ![1024, 1024]⟩

/-! ## The shape relations the weight's layout operations need -/

theorem signs_to_unit_axes : S4x4.BroadcastsInDim S4x4x1x1 (![0, 1] : Fin 2 → Fin S4x4x1x1.rank) := by decide
theorem component_to_unit_axes : S256x256.BroadcastsInDim S1x1x256x256 (![2, 3] : Fin 2 → Fin S1x1x256x256.rank) := by decide
theorem signs_to_blocks : S4x4x1x1.BroadcastsInDim S4x4x256x256 (![0, 1, 2, 3] : Fin 4 → Fin S4x4x256x256.rank) := by decide
theorem component_to_blocks : S1x1x256x256.BroadcastsInDim S4x4x256x256 (![0, 1, 2, 3] : Fin 4 → Fin S4x4x256x256.rank) := by decide
theorem interleave_blocks : S4x4x256x256.Transposes [0, 2, 1, 3] S4x256x4x256 := by decide
theorem flatten_blocks : S4x256x4x256.ShapeCasts S1024x1024 := by decide

/-! ## The four sign matrices, as f32 words in row-major order (1.0 = 0x3F800000, −1.0 = 0xBF800000) -/

/-- The unit 1: the identity matrix. -/
abbrev signs1 : Fin 16 → BitVec 32 := fun
  | 0 => 0x3F800000#32 | 1 => 0x00000000#32 | 2 => 0x00000000#32 | 3 => 0x00000000#32 | 4 => 0x00000000#32 | 5 => 0x3F800000#32 | 6 => 0x00000000#32 | 7 => 0x00000000#32
  | 8 => 0x00000000#32 | 9 => 0x00000000#32 | 10 => 0x3F800000#32 | 11 => 0x00000000#32 | 12 => 0x00000000#32 | 13 => 0x00000000#32 | 14 => 0x00000000#32 | 15 => 0x3F800000#32
  | _ => 0#32

/-- The unit i. -/
abbrev signsI : Fin 16 → BitVec 32 := fun
  | 0 => 0x00000000#32 | 1 => 0xBF800000#32 | 2 => 0x00000000#32 | 3 => 0x00000000#32 | 4 => 0x3F800000#32 | 5 => 0x00000000#32 | 6 => 0x00000000#32 | 7 => 0x00000000#32
  | 8 => 0x00000000#32 | 9 => 0x00000000#32 | 10 => 0x00000000#32 | 11 => 0xBF800000#32 | 12 => 0x00000000#32 | 13 => 0x00000000#32 | 14 => 0x3F800000#32 | 15 => 0x00000000#32
  | _ => 0#32

/-- The unit j. -/
abbrev signsJ : Fin 16 → BitVec 32 := fun
  | 0 => 0x00000000#32 | 1 => 0x00000000#32 | 2 => 0xBF800000#32 | 3 => 0x00000000#32 | 4 => 0x00000000#32 | 5 => 0x00000000#32 | 6 => 0x00000000#32 | 7 => 0x3F800000#32
  | 8 => 0x3F800000#32 | 9 => 0x00000000#32 | 10 => 0x00000000#32 | 11 => 0x00000000#32 | 12 => 0x00000000#32 | 13 => 0xBF800000#32 | 14 => 0x00000000#32 | 15 => 0x00000000#32
  | _ => 0#32

/-- The unit k. -/
abbrev signsK : Fin 16 → BitVec 32 := fun
  | 0 => 0x00000000#32 | 1 => 0x00000000#32 | 2 => 0x00000000#32 | 3 => 0xBF800000#32 | 4 => 0x00000000#32 | 5 => 0x00000000#32 | 6 => 0xBF800000#32 | 7 => 0x00000000#32
  | 8 => 0x00000000#32 | 9 => 0x3F800000#32 | 10 => 0x00000000#32 | 11 => 0x00000000#32 | 12 => 0x3F800000#32 | 13 => 0x00000000#32 | 14 => 0x00000000#32 | 15 => 0x00000000#32
  | _ => 0#32

/-! ## The weight -/

/-- One Kronecker term A ⊗ C as a [4, 4, 256, 256] array: entry (a, b, r, c) is A[a, b] · C[r, c]. -/
def kron (A : Fin 16 → BitVec 32) (C : FVec Ideal S256x256 .f32) : FVec Ideal S4x4x256x256 .f32 :=
  mulf
    (broadcastInDim S4x4x256x256 ![0, 1, 2, 3] signs_to_blocks
      (broadcastInDim S4x4x1x1 ![0, 1] signs_to_unit_axes
        (fun i => (FloatOps.ofBits .f32 (A (S4x4.rowMajor i)) : Ideal .f32))))
    (broadcastInDim S4x4x256x256 ![0, 1, 2, 3] component_to_blocks
      (broadcastInDim S1x1x256x256 ![2, 3] component_to_unit_axes C))

/-- The weight matrix: the four Kronecker terms added in the order 1, i, j, k, the block axes interleaved
    ([a, b, r, c] ↦ [a, r, b, c]) and flattened, so that W[256·a + r, 256·b + c] is entry (a, b, r, c) of the sum. -/
def weight (R I J K : FVec Ideal S256x256 .f32) : FVec Ideal S1024x1024 .f32 :=
  shapeCast S1024x1024
    (transpose S4x256x4x256 [0, 2, 1, 3]
      (addf (addf (addf (kron signs1 R) (kron signsI I)) (kron signsJ J)) (kron signsK K))
      interleave_blocks)
    flatten_blocks

/-! ## The layer -/

/-- Output feature `o` of row (p, q): the row's 1024 input features against row `o` of the weight, plus the bias. -/
def layerAt (x : FVec Ideal S8x4096x1024 .f32) (W : FVec Ideal S1024x1024 .f32) (b : FVec Ideal S1024 .f32)
    (p : Fin 8) (q : Fin 4096) (o : Fin 1024) : EReal :=
  (∑ k : Fin 1024, x (ix3 p q k) * W (ix2 o k)) + b (ix1 o)

/-- The whole [8, 4096, 1024] result. -/
def layer (x : FVec Ideal S8x4096x1024 .f32) (W : FVec Ideal S1024x1024 .f32) (b : FVec Ideal S1024 .f32) :
    FVec Ideal S8x4096x1024 .f32 :=
  fun i => layerAt x W b (i 0) (i 1) (i 2)

theorem layer_apply (x : FVec Ideal S8x4096x1024 .f32) (W : FVec Ideal S1024x1024 .f32) (b : FVec Ideal S1024 .f32)
    (p : Fin 8) (q : Fin 4096) (o : Fin 1024) : layer x W b (ix3 p q o) = layerAt x W b p q o := rfl

end Cert.QuatLinear

end
-- ==== Proof.RegionEntry.lean ====
/-
  What the region finds in the three arrays it reads, as terms of the launch contents of the arguments.

  Before the region the program flattens x to 32768 rows of 1024 features, views the bias as one row, and builds the
  weight, transposes it and narrows it to bf16. The weight is the shared term `Cert.QuatLinear.weight` of the four
  components: the same operations in the same order, so the two are equal by unfolding the definition.
-/
import proofs.«163981_j24223615550298_2_alg».proof.Proof.Gen.KernelIdeal.Frame
import proofs.«163981_j24223615550298_2_alg».proof.Proof.QuatLinear
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The first operand: x with its two leading axes merged, 32768 rows. -/
theorem rows (c : Dev nD) :
    (V m c main_v27 : S32768x1024.Idx → EReal)
      = shapeCast S32768x1024 (m ((c : Thread nD τ).loc main_arg0)) shapeCasts_S8x4096x1024_S32768x1024 := by
  show StableHlo.after hostOps0 (fun b => m (c, b)) (Proc.devRef .tc main_v27) = _
  after_results
  rfl

/-- The third operand: the bias as a single row. -/
theorem biasRow (c : Dev nD) :
    (V m c main_v28 : S1x1024.Idx → EReal)
      = shapeCast S1x1024 (m ((c : Thread nD τ).loc main_arg5)) shapeCasts_S1024_S1x1024 := by
  show StableHlo.after hostOps0 (fun b => m (c, b)) (Proc.devRef .tc main_v28) = _
  after_results
  rfl

/-- The second operand: the weight of the four components, transposed (and narrowed, which changes nothing here). -/
theorem weightT (c : Dev nD) :
    (V m c main_v26 : S1024x1024.Idx → EReal)
      = truncf .bf16 (transpose S1024x1024 [1, 0]
          (Cert.QuatLinear.weight (m ((c : Thread nD τ).loc main_arg1)) (m ((c : Thread nD τ).loc main_arg2))
            (m ((c : Thread nD τ).loc main_arg3)) (m ((c : Thread nD τ).loc main_arg4)))
          transposes_S1024x1024_S1024x1024_1_0) bitsLt_bf16_f32 := by
  show StableHlo.after hostOps0 (fun b => m (c, b)) (Proc.devRef .tc main_v26) = _
  after_results_simp
  rfl

end Cert.KernelIdeal.RegionEntry

end
-- ==== Proof.BlockProduct.lean ====
/-
  The kernel body's stored value, read at one element of the 1024 × 1024 output block.

  The body multiplies the block of 1024 rows of x (all 1024 input features, so the contraction is not split) by the
  whole transposed weight, into a zero accumulator, and adds the bias row broadcast down the rows. On the extended
  reals the narrowing to bf16 is the identity and the zero accumulator contributes nothing, so element (p, q) of the
  block is  Σ_k A[p, k] · B[k, q] + bias[0, q].
-/
import proofs.«163981_j24223615550298_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The block product's dimension numbers: rows × contraction times contraction × columns. -/
abbrev dims : DotDims S1024x1024 S1024x1024 S1024x1024 := dot_S1024x1024_S1024x1024_S1024x1024_1_0_0_1_n_n

/-- The contraction index is its one coordinate, one of the 1024 input features. -/
def feature : dims.contr.Idx ≃ Fin 1024 := contrEquiv1 dims 1024 rfl rfl

/-- At output element (p, q) and feature k the left operand is read at (p, k) … -/
theorem lhs_at (p q k : Fin 1024) : dims.lhsIdx (ix2 p q) (feature.symm k) = ix2 p k := by
  funext a
  refine Fin.ext ?_
  match a with
  | ⟨0, _⟩ => rfl
  | ⟨1, _⟩ => exact (dims.lhsIdx_val_of_single (cl := (1 : Fin 2)) rfl (ix2 p q) (feature.symm k)).trans (contrEquiv1_symm_val dims 1024 rfl rfl k)

/-- … and the right operand at (k, q). -/
theorem rhs_at (p q k : Fin 1024) : dims.rhsIdx (ix2 p q) (feature.symm k) = ix2 k q := by
  funext a
  refine Fin.ext ?_
  match a with
  | ⟨0, _⟩ => exact (dims.rhsIdx_val_of_single (cr := (0 : Fin 2)) rfl (ix2 p q) (feature.symm k)).trans (contrEquiv1_symm_val dims 1024 rfl rfl k)
  | ⟨1, _⟩ => rfl

/-- The block product into the zero accumulator, at (p, q): the sum over the features. -/
theorem product_at (A B : FVec Ideal S1024x1024 .bf16) (p q : Fin 1024) :
    matmul dims none A B (constant S1024x1024 .f32 0x00000000#32) (ix2 p q) = ∑ k : Fin 1024, A (ix2 p k) * B (ix2 k q) := by
  simp only [matmul]
  refine (Ideal.matmul_constant_zero_apply dims none A B (ix2 p q)).trans ?_
  refine (Equiv.sum_comp feature.symm fun kk => A (dims.lhsIdx (ix2 p q) kk) * B (dims.rhsIdx (ix2 p q) kk)).symm.trans ?_
  exact Finset.sum_congr rfl fun k _ => by rw [lhs_at, rhs_at]

/-- THE STORED VALUE at (p, q): the row of the x block against the column of the transposed weight, plus the bias. -/
theorem stored_at (x0 : Vec Ideal S1024x1024 .f32) (x1 : Vec Ideal S1024x1024 .bf16) (x2 : Vec Ideal S1x1024 .f32) (p q : Fin 1024) :
    k0_pay1 (F := Ideal) x0 x1 x2 (ix2 p q) = (∑ k : Fin 1024, x0 (ix2 p k) * x1 (ix2 k q)) + x2 (ix2 (0 : Fin 1) q) := by
  unfold k0_pay1
  show matmul (F := Ideal) dims none (truncf .bf16 (shapeCast S1024x1024 x0 shapeCasts_S1024x1024_S1024x1024) bitsLt_bf16_f32)
        (shapeCast S1024x1024 x1 shapeCasts_S1024x1024_S1024x1024) (constant (F := Ideal) S1024x1024 .f32 0x00000000#32) (ix2 p q)
      + broadcastTo S1024x1024 (shapeCast S1x1024 x2 shapeCasts_S1x1024_S1x1024) broadcasts_S1x1024_S1024x1024 (ix2 p q) = _
  rw [product_at, broadcastTo_1b_ab_apply, shapeCast_self, shapeCast_self, shapeCast_self]
  rfl

end Cert.KernelIdeal.BlockProduct

end
-- ==== Proof.OutputArray.lean ====
/-
  The kernel's output array after the run, as ONE function of the three arrays the region reads.

  The grid has 32 points; point t reads rows 1024·t … 1024·t + 1023 of the flattened x, the whole transposed weight and
  the bias row, and writes back rows 1024·t … 1024·t + 1023 of the output. Element (p, q) of the block it writes is
  Σ_k X[1024·t + p, k] · Wt[k, q] + B[0, q], which is element (1024·t + p, q) of the one array function `rowsTimes`;
  and every row r of the output lies in the block of point r / 1024. So the output array ends as `rowsTimes`.
-/
import proofs.«163981_j24223615550298_2_alg».proof.Proof.Gen.KernelIdeal.Frame
import proofs.«163981_j24223615550298_2_alg».proof.Proof.BlockProduct
import Idealize.ShloMosaic.Lib.Pipeline.Value

set_option maxRecDepth 16384

noncomputable section

open scoped BigOperators

namespace Cert.KernelIdeal.OutputArray

open Cert.KernelIdeal Cert.KernelIdeal.Gen Idealize.ShloMosaic Idealize.ShloMosaic.TcCoe Idealize.ShloMosaic.ValueIdx Idealize.SL.Sem
open Idealize.ShloMosaic.Pipeline (Dat Cfg Window)

/-- Element (r, q) of rows × transposed weight + bias row. -/
def rowsTimesAt (X : S32768x1024.Idx → EReal) (Wt : S1024x1024.Idx → EReal) (B : S1x1024.Idx → EReal)
    (r : Fin 32768) (q : Fin 1024) : EReal :=
  (∑ k : Fin 1024, X (ix2 r k) * Wt (ix2 k q)) + B (ix2 (0 : Fin 1) q)

/-- The whole [32768, 1024] array. -/
def rowsTimes (X : S32768x1024.Idx → EReal) (Wt : S1024x1024.Idx → EReal) (B : S1x1024.Idx → EReal) :
    S32768x1024.Idx → EReal :=
  fun i => rowsTimesAt X Wt B (i 0) (i 1)

variable (m : (ℓ : Loc nD τ sig) → Buf (Elt Ideal) ℓ)

theorem origin : (![0, 0] : Fin 2 → Nat) = fun _ => 0 := funext fun a => by fin_cases a <;> rfl

/-- The printed index maps over the grid: the x window and the output window sit at block row t, the weight and the
    bias windows at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := Nat.lt_of_lt_of_eq t.isLt N_0

/-- The x block at point t, element (p, k), is row 1024·t + p of the flattened x. -/
theorem read_rows (c : Dev nD) (t : Fin cfg0.N) (p k : Fin 1024) (r : Fin 32768) (hr : r.val = t.val * 1024 + p.val) :
    iblk m c 0 t (ix2 p k) = V m c main_v27 (ix2 r k) := by
  show V m c main_v27 (((cfg0.win 0).blk t).view.emb (ix2 p k)) = V m c main_v27 (ix2 r k)
  refine congrArg (V m c main_v27) (funext fun a => Fin.ext ?_)
  obtain ⟨e0, e1, -⟩ := block_indices t
  match a with
  | ⟨0, _⟩ => show win0_0.index t (0 : Fin 2) * 1024 + 1 * p.val = r.val; omega
  | ⟨1, _⟩ => show win0_0.index t (1 : Fin 2) * 1024 + 1 * k.val = k.val; omega

/-- The weight block at every point is the whole transposed weight. -/
theorem read_weight (c : Dev nD) (t : Fin cfg0.N) (k q : Fin 1024) :
    iblk m c 1 t (ix2 k q) = V m c main_v26 (ix2 k q) := by
  show V m c main_v26 (((cfg0.win 1).blk t).view.emb (ix2 k q)) = V m c main_v26 (ix2 k q)
  refine congrArg (V m c main_v26) (funext fun a => Fin.ext ?_)
  obtain ⟨-, -, e2, e3, -⟩ := block_indices t
  match a with
  | ⟨0, _⟩ => show win0_1.index t (0 : Fin 2) * 1024 + 1 * k.val = k.val; omega
  | ⟨1, _⟩ => show win0_1.index t (1 : Fin 2) * 1024 + 1 * q.val = q.val; omega

/-- The bias block at every point is the whole bias row. -/
theorem read_bias (c : Dev nD) (t : Fin cfg0.N) (q : Fin 1024) :
    iblk m c 2 t (ix2 (0 : Fin 1) q) = V m c main_v28 (ix2 (0 : Fin 1) q) := by
  show V m c main_v28 (((cfg0.win 2).blk t).view.emb (ix2 (0 : Fin 1) q)) = V m c main_v28 (ix2 (0 : Fin 1) q)
  refine congrArg (V m c main_v28) (funext fun a => Fin.ext ?_)
  obtain ⟨-, -, -, -, e4, e5, -⟩ := block_indices t
  match a with
  | ⟨0, _⟩ => show win0_2.index t (0 : Fin 2) * 1 + 1 * 0 = 0; omega
  | ⟨1, _⟩ => show win0_2.index t (1 : Fin 2) * 1024 + 1 * q.val = q.val; omega

/-- WHAT POINT t WRITES BACK is block t of `rowsTimes` of the arrays the region reads. -/
theorem flushed_eq (c : Dev nD) (t : Fin cfg0.N) :
    (dats m 0 c).flushed 3 t
      = ((cfg0.win 3).blk t).view.read (Elt Ideal) (rowsTimes (V m c main_v27) (V m c main_v26) (V m c main_v28)) := by
  show (cfg0.win 3).cut (grid0.coords t) ((dats m 0 c).after 3 t) = _
  rw [after0_3]
  unfold out0_3
  rw [View.canon_unit_zero origin]
  simp only [View.ld_unit_zero (S := S1024x1024) origin, View.ld_unit_zero (S := S1x1024) origin]
  funext j
  obtain ⟨p, q, rfl⟩ : ∃ (p : Fin 1024) (q : Fin 1024), j = ix2 p q := ⟨j 0, j 1, eq_ix2 j⟩
  have ht := point_lt t
  obtain ⟨-, -, -, -, -, -, e6, e7⟩ := block_indices t
  let r : Fin 32768 := ⟨t.val * 1024 + p.val, by have := p.isLt; omega⟩
  have hemb : ((cfg0.win 3).blk t).view.emb (ix2 p q) = ix2 r q := by
    funext a; refine Fin.ext ?_
    match a with
    | ⟨0, _⟩ => show win0_3.index t (0 : Fin 2) * 1024 + 1 * p.val = t.val * 1024 + p.val; omega
    | ⟨1, _⟩ => show win0_3.index t (1 : Fin 2) * 1024 + 1 * q.val = q.val; omega
  show k0_pay1 (F := Ideal) (iblk m c 0 t) (iblk m c 1 t) (iblk m c 2 t) (ix2 p q)
      = rowsTimes (V m c main_v27) (V m c main_v26) (V m c main_v28) (((cfg0.win 3).blk t).view.emb (ix2 p q))
  rw [hemb]
  refine (BlockProduct.stored_at (iblk m c 0 t) (iblk m c 1 t) (iblk m c 2 t) p q).trans ?_
  show _ = rowsTimesAt (V m c main_v27) (V m c main_v26) (V m c main_v28) r q
  unfold rowsTimesAt
  rw [read_bias]
  refine congrArg (· + V m c main_v28 (ix2 (0 : Fin 1) q)) (Finset.sum_congr rfl fun k _ => ?_)
  rw [read_rows m c t p k r rfl, read_weight]

/-- An index of the output array is in point t's block iff each coordinate is in the block's range on its axis. -/
theorem mem_block (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v29).slice (win0_3.rect t)).set ↔ _
  rw [View.set_slice_whole, Rect.mem_set_unit]
  exact Iff.rfl

/-- Every row of the output is in the block of the point its number divided by 1024 names. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  let t : Fin cfg0.N := ⟨(i 0).val / 1024, by rw [show cfg0.N = 32 from N_0]; omega⟩
  obtain ⟨-, -, -, -, -, -, e6, e7⟩ := block_indices t
  have htv : t.val = (i 0).val / 1024 := rfl
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the run. -/
theorem final (c : Dev nD) :
    (dats m 0 c).arrAt 3 cfg0.N = rowsTimes (V m c main_v27) (V m c main_v26) (V m c main_v28) :=
  (dats m 0 c).arrAt_eq_of_cover 3 _ (fun t _ => flushed_eq m c t) covered

end Cert.KernelIdeal.OutputArray

end
-- ==== Proof.KernelValue.lean ====
/-
  The kernel program's result, as the layer of its arguments.

  After the region the program views the [32768, 1024] output as [8, 4096, 1024]: element (p, q, o) is row 4096·p + q,
  column o. That row of `rowsTimes` reads row 4096·p + q of the flattened x, which is x[p, q, ·]; column o of the
  transposed weight, which is row o of the weight; and the bias row at o. So the result is
  Σ_k x[p, q, k] · W[o, k] + bias[o], the layer.
-/
import proofs.«163981_j24223615550298_2_alg».proof.Proof.Gen.KernelIdeal.Frame
import proofs.«163981_j24223615550298_2_alg».proof.Proof.RegionEntry
import proofs.«163981_j24223615550298_2_alg».proof.Proof.OutputArray
import proofs.«163981_j24223615550298_2_alg».proof.Proof.QuatLinear
import Idealize.ShloMosaic.Lib.ValueLayout
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.ShloMosaic.ValueIdx Idealize.SL.Sem
open Cert.KernelIdeal.OutputArray

/-- The reshaped output of rows × transposed weight + bias row, over the program's own views of x, W and the bias, is
    the layer: index by index the same sum. -/
theorem reshaped_eq_layer (x : FVec Ideal S8x4096x1024 .f32) (W : FVec Ideal S1024x1024 .f32) (b : FVec Ideal S1024 .f32) :
    shapeCast S8x4096x1024
        (rowsTimes (shapeCast S32768x1024 x shapeCasts_S8x4096x1024_S32768x1024)
          (truncf .bf16 (transpose S1024x1024 [1, 0] W transposes_S1024x1024_S1024x1024_1_0) bitsLt_bf16_f32)
          (shapeCast S1x1024 b shapeCasts_S1024_S1x1024))
        shapeCasts_S32768x1024_S8x4096x1024
      = Cert.QuatLinear.layer x W b := by
  funext i
  obtain ⟨p, q, o, rfl⟩ : ∃ (p : Fin 8) (q : Fin 4096) (o : Fin 1024), i = ix3 p q o := ⟨i 0, i 1, i 2, eq_ix3 i⟩
  rw [Cert.QuatLinear.layer_apply]
  have hp := p.isLt
  have hq := q.isLt
  let r : Fin 32768 := ⟨p.val * 4096 + q.val, by omega⟩
  refine (shapeCast_apply _ shapeCasts_S32768x1024_S8x4096x1024 (ix3 p q o) (ix2 r o) ?_).trans ?_
  · rw [Shape.rowMajor_val_two, Shape.rowMajor_val_three]
    show (p.val * 4096 + q.val) * 1024 + o.val = (p.val * 4096 + q.val) * 1024 + o.val
    rfl
  show rowsTimesAt _ _ _ r o = Cert.QuatLinear.layerAt x W b p q o
  unfold rowsTimesAt Cert.QuatLinear.layerAt
  have hrow : ∀ k : Fin 1024, shapeCast S32768x1024 x shapeCasts_S8x4096x1024_S32768x1024 (ix2 r k) = x (ix3 p q k) := fun k =>
    shapeCast_apply x shapeCasts_S8x4096x1024_S32768x1024 (ix2 r k) (ix3 p q k) (by
      rw [Shape.rowMajor_val_two, Shape.rowMajor_val_three]
      show (p.val * 4096 + q.val) * 1024 + k.val = (p.val * 4096 + q.val) * 1024 + k.val
      rfl)
  have hcol : ∀ k : Fin 1024, (truncf .bf16 (transpose S1024x1024 [1, 0] W transposes_S1024x1024_S1024x1024_1_0) bitsLt_bf16_f32 : FVec Ideal S1024x1024 .bf16) (ix2 k o) = W (ix2 o k) := fun k =>
    transpose_ix2_apply W transposes_S1024x1024_S1024x1024_1_0 k o
  have hbias : shapeCast S1x1024 b shapeCasts_S1024_S1x1024 (ix2 (0 : Fin 1) o) = b (ix1 o) :=
    shapeCast_a_1a_apply b shapeCasts_S1024_S1x1024 0 o
  rw [hbias]
  exact congrArg (· + b (ix1 o)) (Finset.sum_congr rfl fun k _ => by rw [hrow k, hcol k])

variable (m : (ℓ : Loc nD τ sig) → Buf (Elt Ideal) ℓ) (ρ : Dev nD → PrngReg)

/-- The result buffer after the lines that follow the region: the region's output array, reshaped. -/
theorem result_eq (c : Dev nD) :
    Pipeline.afterTail₀ cfgs (dats m) 0 (V0 m) [hostOps1] c main_v30
      = shapeCast S8x4096x1024 (rowsTimes (V m c main_v27) (V m c main_v26) (V m c main_v28)) shapeCasts_S32768x1024_S8x4096x1024 := by
  have hw := (Pipeline.withArrays_arr spec0 launch0.win.arr_inj c (V0 m c) (fun w => (dats m 0 c).arrAt w cfg0.N) 3).trans (final m c)
  unfold Pipeline.afterTail₀
  show StableHlo.after hostOps1 _ (Proc.devRef .tc main_v30) = _
  after_results
  show shapeCast S8x4096x1024 (Pipeline.withArrays spec0 c (V0 m c) (fun w => (dats m 0 c).arrAt w cfg0.N) (Proc.devRef .tc (Pipeline.arrRef spec0 3))) shapeCasts_S32768x1024_S8x4096x1024 = _
  rw [hw]

/-- THE KERNEL PROGRAM'S RUN, READ: the result is the layer of the arguments' launch contents, the arguments unchanged. -/
theorem run : θ_run (defs (F := Ideal)) (onTc (τ := τ) (main (F := Ideal))) ⟨m, fun _ => 0, ρ⟩ fun r => ∀ c : Dev nD,
      r.2.mem ((c.tc : Thread nD τ).loc main_v30)
        = Cert.QuatLinear.layer (m ((c.tc : Thread nD τ).loc main_arg0))
            (Cert.QuatLinear.weight (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨by
      rw [(h c).2 main_v30 (Pipeline.mem_restRefs_of main_v30 (by decide) (by decide)), result_eq m c,
        RegionEntry.rows m c, RegionEntry.weightT m c, RegionEntry.biasRow m c]
      exact reshaped_eq_layer _ _ _,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelValue

end
-- ==== Proof.RefValue.lean ====
/-
  The reference program's run, and its result as the quaternion linear layer.

  The program is a straight line of 33 array operations: four 4 × 4 sign matrices, the 1024 × 1024 weight built from
  them and the four 256 × 256 components, the product of the [8, 4096, 1024] input with the weight over the input's
  last axis and the weight's second, and the bias added along the two leading axes. Run from any memory, every
  execution ends with the result buffer at the operations' composed term of the argument buffers' initial contents,
  and the arguments unchanged (`run_term`).

  That term is the layer (`layer_eq`): read at an output position (p, q, o), the product is the sum over the one
  contracted axis of input times weight; the contraction index is a feature number k : Fin 1024, at which the input
  is read at (p, q, k) and the weight at (o, k); and the twice-broadcast bias is the bias at o. The weight is kept a
  variable throughout: only its value at an index is read.
-/
import proofs.«163981_j24223615550298_2_alg».proof.Proof.Gen.ReferenceIdeal
import proofs.«163981_j24223615550298_2_alg».proof.Proof.QuatLinear
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open scoped BigOperators

section Program

variable {F : FTy → Type} [FloatOps F]

/-- @main's 33 operations, in order. -/
abbrev ops : List (HloOp τ sig (Elt F)) :=
  [ nullary main_cst (fun i => FloatOps.ofBits .f32 (lit0 (S4x4.rowMajor i))),
    nullary main_cst_0 (fun i => FloatOps.ofBits .f32 (lit1 (S4x4.rowMajor i))),
    nullary main_cst_1 (fun i => FloatOps.ofBits .f32 (lit2 (S4x4.rowMajor i))),
    nullary main_cst_2 (fun i => FloatOps.ofBits .f32 (lit3 (S4x4.rowMajor i))),
    unary main_cst main_v0 (broadcastInDim S4x4x1x1 ![0, 1] bcast_S4x4_S4x4x1x1_0_1 : (⟨S4x4, .f32⟩ : BufTy).Contents (Elt F) → (⟨S4x4x1x1, .f32⟩ : BufTy).Contents (Elt F)),
    unary main_arg1 main_v1 (broadcastInDim S1x1x256x256 ![2, 3] bcast_S256x256_S1x1x256x256_2_3 : (⟨S256x256, .f32⟩ : BufTy).Contents (Elt F) → (⟨S1x1x256x256, .f32⟩ : BufTy).Contents (Elt F)),
    unary main_v0 main_v2 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    unary main_v1 main_v3 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    binary main_v2 main_v3 main_v4 (mulf : (⟨S4x4x256x256, .f32⟩ : BufTy).Contents (Elt F) → (⟨S4x4x256x256, .f32⟩ : BufTy).Contents (Elt F) → (⟨S4x4x256x256, .f32⟩ : BufTy).Contents (Elt F)),
    unary main_cst_0 main_v5 (broadcastInDim S4x4x1x1 ![0, 1] bcast_S4x4_S4x4x1x1_0_1 : (⟨S4x4, .f32⟩ : BufTy).Contents (Elt F) → (⟨S4x4x1x1, .f32⟩ : BufTy).Contents (Elt F)),
    unary main_arg2 main_v6 (broadcastInDim S1x1x256x256 ![2, 3] bcast_S256x256_S1x1x256x256_2_3 : (⟨S256x256, .f32⟩ : BufTy).Contents (Elt F) → (⟨S1x1x256x256, .f32⟩ : BufTy).Contents (Elt F)),
    unary main_v5 main_v7 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    unary main_v6 main_v8 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    binary main_v7 main_v8 main_v9 (mulf : (⟨S4x4x256x256, .f32⟩ : BufTy).Contents (Elt F) → (⟨S4x4x256x256, .f32⟩ : BufTy).Contents (Elt F) → (⟨S4x4x256x256, .f32⟩ : BufTy).Contents (Elt F)),
    binary main_v4 main_v9 main_v10 (addf : (⟨S4x4x256x256, .f32⟩ : BufTy).Contents (Elt F) → (⟨S4x4x256x256, .f32⟩ : BufTy).Contents (Elt F) → (⟨S4x4x256x256, .f32⟩ : BufTy).Contents (Elt F)),
    unary main_cst_1 main_v11 (broadcastInDim S4x4x1x1 ![0, 1] bcast_S4x4_S4x4x1x1_0_1 : (⟨S4x4, .f32⟩ : BufTy).Contents (Elt F) → (⟨S4x4x1x1, .f32⟩ : BufTy).Contents (Elt F)),
    unary main_arg3 main_v12 (broadcastInDim S1x1x256x256 ![2, 3] bcast_S256x256_S1x1x256x256_2_3 : (⟨S256x256, .f32⟩ : BufTy).Contents (Elt F) → (⟨S1x1x256x256, .f32⟩ : BufTy).Contents (Elt F)),
    unary main_v11 main_v13 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    unary main_v12 main_v14 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    binary main_v13 main_v14 main_v15 (mulf : (⟨S4x4x256x256, .f32⟩ : BufTy).Contents (Elt F) → (⟨S4x4x256x256, .f32⟩ : BufTy).Contents (Elt F) → (⟨S4x4x256x256, .f32⟩ : BufTy).Contents (Elt F)),
    binary main_v10 main_v15 main_v16 (addf : (⟨S4x4x256x256, .f32⟩ : BufTy).Contents (Elt F) → (⟨S4x4x256x256, .f32⟩ : BufTy).Contents (Elt F) → (⟨S4x4x256x256, .f32⟩ : BufTy).Contents (Elt F)),
    unary main_cst_2 main_v17 (broadcastInDim S4x4x1x1 ![0, 1] bcast_S4x4_S4x4x1x1_0_1 : (⟨S4x4, .f32⟩ : BufTy).Contents (Elt F) → (⟨S4x4x1x1, .f32⟩ : BufTy).Contents (Elt F)),
    unary main_arg4 main_v18 (broadcastInDim S1x1x256x256 ![2, 3] bcast_S256x256_S1x1x256x256_2_3 : (⟨S256x256, .f32⟩ : BufTy).Contents (Elt F) → (⟨S1x1x256x256, .f32⟩ : BufTy).Contents (Elt F)),
    unary main_v17 main_v19 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    unary main_v18 main_v20 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    binary main_v19 main_v20 main_v21 (mulf : (⟨S4x4x256x256, .f32⟩ : BufTy).Contents (Elt F) → (⟨S4x4x256x256, .f32⟩ : BufTy).Contents (Elt F) → (⟨S4x4x256x256, .f32⟩ : BufTy).Contents (Elt F)),
    binary main_v16 main_v21 main_v22 (addf : (⟨S4x4x256x256, .f32⟩ : BufTy).Contents (Elt F) → (⟨S4x4x256x256, .f32⟩ : BufTy).Contents (Elt F) → (⟨S4x4x256x256, .f32⟩ : BufTy).Contents (Elt F)),
    unary main_v22 main_v23 ((transpose S4x256x4x256 [0, 2, 1, 3] · transposes_S4x4x256x256_S4x256x4x256_0_2_1_3) : (⟨S4x4x256x256, .f32⟩ : BufTy).Contents (Elt F) → (⟨S4x256x4x256, .f32⟩ : BufTy).Contents (Elt F)),
    reshape main_v23 main_v24 rfl shapeCasts_S4x256x4x256_S1024x1024,
    binary main_arg0 main_v24 main_v25 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    unary main_arg5 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v25 main_v27 main_v28 (addf : (⟨S8x4096x1024, .f32⟩ : BufTy).Contents (Elt F) → (⟨S8x4096x1024, .f32⟩ : BufTy).Contents (Elt F) → (⟨S8x4096x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., binary_bufs_sub .., unary_bufs_sub .., reshape_bufs_sub .., binary_bufs_sub .., unary_bufs_sub .., unary_bufs_sub .., binary_bufs_sub ..⟩

end Program

/-- The dimension record of the product: the input's last axis against the weight's second. -/
abbrev dotDims : DotDims S8x4096x1024 S1024x1024 S8x4096x1024 := dot_S8x4096x1024_S1024x1024_S8x4096x1024_2_1_01_0_n_n

/-- The one contracted axis has the 1024 input features: a contraction index is a feature number. -/
abbrev featureEquiv : dotDims.contr.Idx ≃ Fin 1024 := ValueIdx.contrEquiv1 dotDims 1024 rfl rfl

/-- At output position (p, q, o) and feature k the product reads the input at (p, q, k) … -/
theorem lhsIdx_eq (p : Fin 8) (q : Fin 4096) (o k : Fin 1024) :
    dotDims.lhsIdx (ValueIdx.ix3 p q o) (featureEquiv.symm k) = ValueIdx.ix3 p q k := by
  funext a
  apply Fin.ext
  match a with
  | ⟨0, _⟩ => rfl
  | ⟨1, _⟩ => rfl
  | ⟨2, _⟩ => rfl

/-- … and the weight at (o, k). -/
theorem rhsIdx_eq (p : Fin 8) (q : Fin 4096) (o k : Fin 1024) :
    dotDims.rhsIdx (ValueIdx.ix3 p q o) (featureEquiv.symm k) = ValueIdx.ix2 o k := by
  funext a
  apply Fin.ext
  match a with
  | ⟨0, _⟩ => rfl
  | ⟨1, _⟩ => rfl

/-- The product followed by the broadcast bias is the layer: at each output position, the sum over the 1024 input
    features of input times weight, plus that output feature's bias. -/
theorem layer_eq (x : FVec Ideal S8x4096x1024 .f32) (W : FVec Ideal S1024x1024 .f32) (b : FVec Ideal S1024 .f32) :
    addf (Host.dotGeneral (F := Ideal) dot_S8x4096x1024_S1024x1024_S8x4096x1024_2_1_01_0_n_n none x W)
        (broadcastInDim S8x4096x1024 ![0, 1, 2] bcast_S1x1x1024_S8x4096x1024_0_1_2
          (broadcastInDim S1x1x1024 ![2] bcast_S1024_S1x1x1024_2 b))
      = Cert.QuatLinear.layer x W b := by
  funext i
  obtain ⟨p, q, o, rfl⟩ : ∃ (p : Fin 8) (q : Fin 4096) (o : Fin 1024), i = ValueIdx.ix3 p q o :=
    ⟨i 0, i 1, i 2, ValueIdx.eq_ix3 i⟩
  rw [Cert.QuatLinear.layer_apply]
  unfold Cert.QuatLinear.layerAt
  rw [ValueIdx.addf_apply]
  congr 1
  · simp only [Host.dotGeneral]
    rw [Ideal.dotGeneral_apply]
    refine (Equiv.sum_comp featureEquiv.symm _).symm.trans ?_
    refine Finset.sum_congr rfl fun k _ => ?_
    show x (dotDims.lhsIdx (ValueIdx.ix3 p q o) (featureEquiv.symm k)) * W (dotDims.rhsIdx (ValueIdx.ix3 p q o) (featureEquiv.symm k))
      = x (ValueIdx.ix3 p q k) * W (ValueIdx.ix2 o k)
    rw [lhsIdx_eq, rhsIdx_eq]
  · refine (broadcastInDim_apply _ _ _ _ (ValueIdx.ix3 (0 : Fin 1) (0 : Fin 1) o) ?_).trans ?_
    · intro a
      match a with
      | ⟨0, _⟩ => rfl
      | ⟨1, _⟩ => rfl
      | ⟨2, _⟩ => rfl
    · refine broadcastInDim_apply _ _ _ _ (ValueIdx.ix1 o) ?_
      intro a
      match a with
      | ⟨0, _⟩ => rfl

/-- The run, with the result at the operations' composed term: the product of the input with the weight, plus the
    bias broadcast along the two leading axes. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = addf (Host.dotGeneral (φ₁ := .f32) (φ₂ := .f32) dot_S8x4096x1024_S1024x1024_S8x4096x1024_2_1_01_0_n_n none (m ((c.tc : Thread nD τ).loc main_arg0)) (Cert.QuatLinear.weight (m ((c.tc : Thread nD τ).loc main_arg1)) (m ((c.tc : Thread nD τ).loc main_arg2)) (m ((c.tc : Thread nD τ).loc main_arg3)) (m ((c.tc : Thread nD τ).loc main_arg4)))) (broadcastInDim S8x4096x1024 ![0, 1, 2] bcast_S1x1x1024_S8x4096x1024_0_1_2 (broadcastInDim S1x1x1024 ![2] bcast_S1024_S1x1x1024_2 (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v28).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

/-- On every device, from any memory with zero counters: every weakly fair execution of the program terminates with
    the result at the layer of the input, the weight of the four components, and the bias; the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = Cert.QuatLinear.layer (m ((c.tc : Thread nD τ).loc main_arg0))
            (Cert.QuatLinear.weight (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (layer_eq _ _ _), (h c).2⟩) (run_term m ρ)

end Cert.ReferenceIdeal.RefValue

end
-- ==== Proof.lean ====
/-
  The certificate of the quaternion linear layer: a Pallas kernel that multiplies blocks of 1024 rows of x by the
  transposed weight on the matrix unit and adds the bias, against jnp's einsum('bsi,oi->bso', x, W) + bias, the weight
  W = A₁ ⊗ R + A_I ⊗ I + A_J ⊗ J + A_K ⊗ K built by the same host operations in both programs.

  On the extended reals both results are y[p, q, o] = Σ_k x[p, q, k] · W[o, k] + bias[o] (`Cert.QuatLinear.layer`):
  the kernel's rounding of its operands to bf16 is the identity there, its zero accumulator adds nothing, and the sum
  over the 1024 input features is the same finite sum in a commutative monoid whichever way it is tiled. No law that
  needs finiteness is used, so the precondition is never opened.

  The parts: the layer and the weight as functions (QuatLinear); the kernel body's stored value at an element
  (BlockProduct); what the region finds in its arrays (RegionEntry); the output array from the 32 blocks (OutputArray);
  the kernel program's result after the final reshape (KernelValue); the reference's run and result (RefValue).
-/
import proofs.«163981_j24223615550298_2_alg».proof.Defs
import proofs.«163981_j24223615550298_2_alg».proof.Proof.Gen.Kernel
import proofs.«163981_j24223615550298_2_alg».proof.Proof.Gen.Kernel.Skeleton
import proofs.«163981_j24223615550298_2_alg».proof.Proof.Gen.Kernel.Launch
import proofs.«163981_j24223615550298_2_alg».proof.Proof.Gen.Kernel.Points
import proofs.«163981_j24223615550298_2_alg».proof.Proof.Gen.Kernel.Frame
import proofs.«163981_j24223615550298_2_alg».proof.Proof.Gen.KernelIdeal
import proofs.«163981_j24223615550298_2_alg».proof.Proof.Gen.KernelIdeal.Skeleton
import proofs.«163981_j24223615550298_2_alg».proof.Proof.Gen.KernelIdeal.Launch
import proofs.«163981_j24223615550298_2_alg».proof.Proof.Gen.KernelIdeal.Points
import proofs.«163981_j24223615550298_2_alg».proof.Proof.Gen.KernelIdeal.Frame
import proofs.«163981_j24223615550298_2_alg».proof.Proof.Gen.ReferenceIdeal
import proofs.«163981_j24223615550298_2_alg».proof.Proof.Gen.Pre_finite_inputs
import proofs.«163981_j24223615550298_2_alg».proof.Proof.QuatLinear
import proofs.«163981_j24223615550298_2_alg».proof.Proof.KernelValue
import proofs.«163981_j24223615550298_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.RefValue.run m ρ)

/-- The idealized kernel is the kernel's own text read on the extended reals: no operation was rewritten. -/
theorem preserves : Cert.preserves_Kernel_KernelIdeal := trivial

/-- Both programs end at the layer of the arguments — the kernel block of rows by block of rows, the reference in one
    contraction — and the arguments agree, so the results are equal. -/
theorem algebraic : Cert.algebraic_KernelIdeal_ReferenceIdeal := by
  intro m ρ m' ρ' _ hagree
  refine ⟨fun c => Cert.QuatLinear.layer (m ((c.tc : Thread Cert.KernelIdeal.nD Cert.KernelIdeal.τ).loc Cert.KernelIdeal.main_arg0))
      (Cert.QuatLinear.weight (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩) (Cert.ReferenceIdeal.RefValue.run m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
